-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x64 : Shape := ⟨2, ![96, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S96x64 1) : IVec S_ 1 :=
  let main_c_5 : IVec S_ 1 := constantI S_ 1 1#1
  let main_v17 : IVec S_ 1 := (fun x v => Host.reduce IntOp.andi x v reducesTo_S96x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x96 .f32) (main_arg3 : FVec F S96 .f32) (main_arg4 : FVec F S96x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x64 .f32 := Host.absf main_arg4
  let main_cst_4 : FVec F S_ .f32 := constant S_ .f32 0x7F800000#32
  let main_v15 : FVec F S96x64 .f32 := broadcastInDim S96x64 ![] bcast_S_S96x64 main_cst_4
  let main_v16 : IVec S96x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x96 : Shape := ⟨2, ![50000, 96]⟩
abbrev S2000x128 : Shape := ⟨2, ![2000, 128]⟩
abbrev S2000x96 : Shape := ⟨2, ![2000, 96]⟩
abbrev S800000x96 : Shape := ⟨2, ![800000, 96]⟩
abbrev S1x96 : Shape := ⟨2, ![1, 96]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 93
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S50000x96, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x96, .f32⟩
  | .hbm, ⟨60, _⟩ => ⟨S800000x1, .f32⟩
  | .hbm, ⟨61, _⟩ => ⟨S800000x96, .f32⟩
  | .hbm, ⟨62, _⟩ => ⟨S800000x96, .f32⟩
  | .hbm, ⟨63, _⟩ => ⟨S_, .f32⟩
  | .hbm, ⟨64, _⟩ => ⟨S50000x96, .f32⟩
  | .hbm, ⟨65, _⟩ => ⟨S800000x1, .i32⟩
  | .hbm, ⟨66, _⟩ => ⟨S50000x96, .f32⟩
  | .hbm, ⟨67, _⟩ => ⟨S1x96, .f32⟩
  | .hbm, ⟨68, _⟩ => ⟨S50000x96, .f32⟩
  | .hbm, ⟨69, _⟩ => ⟨S50000x96, .f32⟩
  | .hbm, ⟨70, _⟩ => ⟨S_, .f32⟩
  | .hbm, ⟨71, _⟩ => ⟨S50000x96, .f32⟩
  | .hbm, ⟨72, _⟩ => ⟨S50000x96, .f32⟩
  | .hbm, ⟨73, _⟩ => ⟨S50000x64, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x64, .f32⟩
  | .hbm, ⟨83, _⟩ => ⟨S800000x1, .f32⟩
  | .hbm, ⟨84, _⟩ => ⟨S800000x64, .f32⟩
  | .hbm, ⟨85, _⟩ => ⟨S800000x64, .f32⟩
  | .hbm, ⟨86, _⟩ => ⟨S_, .f32⟩
  | .hbm, ⟨87, _⟩ => ⟨S50000x64, .f32⟩
  | .hbm, ⟨88, _⟩ => ⟨S800000x1, .i32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S96x64, .f32⟩
  | .local _ .vmem, ⟨8, _⟩ => ⟨S2000x64, .f32⟩
  | .local _ .vmem, ⟨9, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S2000x96_S2000x96_0_0 : ∀ a, (![0, 0] : Fin 2 → Nat) a + S2000x96.size a ≤ S2000x96.size a
  h_S2000x96 : 0 < S2000x96.numel
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S2000x96_S2000x96 : S2000x96.ShapeCasts S2000x96
  inb_S96x64_S96x64_0_0 : ∀ a, (![0, 0] : Fin 2 → Nat) a + S96x64.size a ≤ S96x64.size a
  h_S96x64 : 0 < S96x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x96_S2000x96_1_0_0_1_n_n_wf : DotDims.WF S2000x128 S128x96 S2000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x64_S2000x64_1_0_0_1_n_n_wf : DotDims.WF S2000x96 S96x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x64.size a ≤ S96x64.size a
  hwx1_1 : ∀ i : grid1.Coords, EltTy.bits .f32 = 32 ∨ (Rect.block (s := S96x64) S96x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x64_S2000x64_1_0_0_1_n_n : DotDims S2000x96 S96x64 S2000x64 where
  lhsContracting := [1]
  rhsContracting := [0]
  lhsNonContracting := [0]
  rhsNonContracting := [1]
  lhsBatch := []
  rhsBatch := []
  wf := dot_S2000x96_S96x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S96x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x96 : Shape := ⟨2, ![50000, 96]⟩
abbrev S800000x96 : Shape := ⟨2, ![800000, 96]⟩
abbrev S1x96 : Shape := ⟨2, ![1, 96]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S50000x96, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x96, .f32⟩
  | .hbm, ⟨60, _⟩ => ⟨S800000x1, .f32⟩
  | .hbm, ⟨61, _⟩ => ⟨S800000x96, .f32⟩
  | .hbm, ⟨62, _⟩ => ⟨S800000x96, .f32⟩
  | .hbm, ⟨63, _⟩ => ⟨S_, .f32⟩
  | .hbm, ⟨64, _⟩ => ⟨S50000x96, .f32⟩
  | .hbm, ⟨65, _⟩ => ⟨S800000x1, .i32⟩
  | .hbm, ⟨66, _⟩ => ⟨S50000x96, .f32⟩
  | .hbm, ⟨67, _⟩ => ⟨S1x96, .f32⟩
  | .hbm, ⟨68, _⟩ => ⟨S50000x96, .f32⟩
  | .hbm, ⟨69, _⟩ => ⟨S50000x96, .f32⟩
  | .hbm, ⟨70, _⟩ => ⟨S_, .f32⟩
  | .hbm, ⟨71, _⟩ => ⟨S50000x96, .f32⟩
  | .hbm, ⟨72, _⟩ => ⟨S50000x96, .f32⟩
  | .hbm, ⟨73, _⟩ => ⟨S50000x64, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x64, .f32⟩
  | .hbm, ⟨83, _⟩ => ⟨S800000x1, .f32⟩
  | .hbm, ⟨84, _⟩ => ⟨S800000x64, .f32⟩
  | .hbm, ⟨85, _⟩ => ⟨S800000x64, .f32⟩
  | .hbm, ⟨86, _⟩ => ⟨S_, .f32⟩
  | .hbm, ⟨87, _⟩ => ⟨S50000x64, .f32⟩
  | .hbm, ⟨88, _⟩ => ⟨S800000x1, .i32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x96_S50000x96_1_0_0_1_n_n_wf : DotDims.WF S50000x128 S128x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x64_S50000x64_1_0_0_1_n_n_wf : DotDims.WF S50000x96 S96x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibRowBlockProduct.lean ====
/-
  A matrix product taken one block of rows at a time.

  On the extended reals the entry `(r, q)` of `A · W` is `∑ k, A (r, k) * W (k, q)`: it reads row `r` of `A` and nothing
  else of `A`. So if `a` is a block of rows of `A` — row `p` of `a` is row `r` of `A` — and `w` agrees with `W` on column
  `q`, then entry `(p, q)` of the product `a · w` accumulated from zero is entry `(r, q)` of `A · W`, for any extents and
  any operand formats (a change of format is the identity on the extended reals).
-/
import proofs.«157648_j4956392259903_1_alg».proof.Proof.LibPlainDot

noncomputable section

open scoped BigOperators

namespace Cert.Lib.RowBlockProduct

open Idealize.ShloMosaic Idealize.ShloMosaic.ValueIdx Cert.Lib.PlainDot

variable {M B K N : Nat}

/-- Entry `(p, q)` of a block's product into the zero accumulator is entry `(r, q)` of the whole product, when the
    block's row `p` is the matrix's row `r` and the right operands agree on column `q`. -/
theorem matmul_block_eq_dotGeneral {φ₁ φ₂ ψ₁ ψ₂ : FTy} (prec prec' : Option ContractPrecision) (sched : HostSchedule)
    (a : FVec Ideal ⟨2, ![B, K]⟩ φ₁) (w : FVec Ideal ⟨2, ![K, N]⟩ φ₂)
    (A : FVec Ideal ⟨2, ![M, K]⟩ ψ₁) (W : FVec Ideal ⟨2, ![K, N]⟩ ψ₂)
    (p : Fin B) (r : Fin M) (q : Fin N)
    (ha : ∀ k : Fin K, a (ix2 p k) = A (ix2 r k)) (hw : ∀ k : Fin K, w (ix2 k q) = W (ix2 k q)) :
    FloatOps.matmul (DotDims.plain B K N) prec a w (constant ⟨2, ![B, N]⟩ .f32 0x00000000#32) (ix2 p q)
      = FloatOps.dotGeneral (DotDims.plain M K N) prec' sched A W (ix2 r q) := by
  rw [matmul_plain_zero_apply, dotGeneral_plain_apply]
  exact Finset.sum_congr rfl fun k _ => by rw [ha k, hw k]

end Cert.Lib.RowBlockProduct

end
-- ==== Proof.KernelBlocks.lean ====
/-
  What each of the kernel's two launches leaves in its output array, as ONE function of the arrays it reads.

  Both launches are the same body on a grid of 25 points: point `t` loads rows `2000·t … 2000·t + 1999` of the left
  matrix and the whole right matrix, multiplies them into a zero accumulator, and stores the product as rows
  `2000·t … 2000·t + 1999` of the output. An entry of a matrix product reads one row of the left operand only, so the
  block point `t` writes back is the same rows of the product of the WHOLE matrices; the 25 blocks tile the 50000 rows,
  so after the launch the output array is that product: `[50000,128]·[128,96]` for the first launch,
  `[50000,96]·[96,64]` for the second. Stated at any contents `V` the launch is entered from.
-/
import proofs.«157648_j4956392259903_1_alg».proof.Proof.Gen.KernelIdeal.Frame
import proofs.«157648_j4956392259903_1_alg».proof.Proof.LibRowBlockProduct
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.Lib.RowBlockProduct
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-! ## The first launch: `[50000,128]·[128,96]` -/

/-- The product of the whole matrices, as the host computes it. -/
abbrev product0 (A : FVec Ideal S50000x128 .f32) (W : FVec Ideal S128x96 .f32) : FVec Ideal S50000x96 .f32 :=
  Host.dotGeneral (DotDims.plain 50000 128 96) none A W

/-- The body's stored value at an entry: row `p` of the loaded block times column `q` of the loaded right matrix — entry
    `(r, q)` of the whole product when the block's row `p` is the matrix's row `r`. -/
theorem stored0_apply (x0 : Vec Ideal S2000x128 .f32) (x1 : Vec Ideal S128x96 .f32)
    (A : FVec Ideal S50000x128 .f32) (W : FVec Ideal S128x96 .f32) (p : Fin 2000) (r : Fin 50000) (q : Fin 96)
    (ha : ∀ k : Fin 128, x0 (ix2 p k) = A (ix2 r k)) (hw : ∀ k : Fin 128, x1 (ix2 k q) = W (ix2 k q)) :
    k0_pay1 x0 x1 (ix2 p q) = product0 A W (ix2 r q) := by
  unfold k0_pay1
  exact matmul_block_eq_dotGeneral none none .single (truncf .bf16 x0 bitsLt_bf16_f32) (truncf .bf16 x1 bitsLt_bf16_f32) A W p r q ha hw

/-- The printed index maps over the grid: point `t` takes block row `t` of the left matrix and of the output, and the
    right matrix whole. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed0_eq (c : Dev nD) (t : Fin cfg0.N) :
    (dat0 V c).flushed 2 t = ((cfg0.win 2).blk t).view.read (Elt Ideal) (product0 (V c main_arg0) (V c main_arg2)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x96) origin]
  obtain ⟨e0, e1, e2, e3, e4, e5⟩ := maps0 t
  have ht : t.val < 25 := t.isLt
  funext j
  show k0_pay1 (iblk0 V c 0 t) (iblk0 V c 1 t) j = product0 (V c main_arg0) (V c main_arg2) (((cfg0.win 2).blk t).view.emb j)
  obtain ⟨p, q, rfl⟩ : ∃ (p : Fin 2000) (q : Fin 96), j = ix2 p q := ⟨j 0, j 1, eq_ix2 j⟩
  have hp : p.val < 2000 := p.isLt
  have hrow : ((cfg0.win 2).blk t).view.emb (ix2 p q) = ix2 (⟨t.val * 2000 + p.val, by omega⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 96 + 1 * q.val = q.val; omega
  rw [hrow]
  refine stored0_apply (iblk0 V c 0 t) (iblk0 V c 1 t) (V c main_arg0) (V c main_arg2) p ⟨t.val * 2000 + p.val, by omega⟩ q ?_ ?_
  · intro k
    show V c main_arg0 (((cfg0.win 0).blk t).view.emb (ix2 p k)) = V c main_arg0 (ix2 (⟨t.val * 2000 + p.val, by omega⟩ : Fin 50000) k)
    refine congrArg (V c main_arg0) ?_
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  · intro k
    show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 96 + 1 * q.val = q.val; omega

/-- An index of the output array is in point `t`'s block iff each coordinate is in the block's range on its axis. -/
theorem mem_block0 (t : Fin cfg0.N) (i : S50000x96.Idx) :
    i ∈ ((cfg0.win 2).blk t).view.set ↔ ∀ a : Fin 2, win0_2.index t a * S2000x96.size a ≤ (i a).val ∧ (i a).val < win0_2.index t a * S2000x96.size a + S2000x96.size a := by
  show i ∈ ((View.whole main_v33).slice (win0_2.rect t)).set ↔ _
  rw [View.set_slice_whole, Rect.mem_set_unit]
  exact Iff.rfl

/-- Row `r` of the output lies in the block of point `r / 2000`: the 25 blocks tile the 50000 rows. -/
theorem cover0 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  have hN : grid0.N = 25 := N_0
  let t : Fin cfg0.N := ⟨(i 0).val / 2000, show (i 0).val / 2000 < grid0.N by omega⟩
  obtain ⟨e0, e1, e2, e3, e4, e5⟩ := maps0 t
  have ht : t.val = (i 0).val / 2000 := rfl
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 96 ≤ (i 1).val ∧ (i 1).val < win0_2.index t (1 : Fin 2) * 96 + 96; omega

/-- After the first launch its output array holds the product of the whole matrices it was entered with. -/
theorem final0 (c : Dev nD) : (dat0 V c).arrAt 2 cfg0.N = product0 (V c main_arg0) (V c main_arg2) :=
  (dat0 V c).arrAt_eq_of_cover 2 (product0 (V c main_arg0) (V c main_arg2)) (fun t _ => flushed0_eq V c t) cover0

/-! ## The second launch: `[50000,96]·[96,64]` -/

/-- The product of the whole matrices, as the host computes it. -/
abbrev product1 (A : FVec Ideal S50000x96 .f32) (W : FVec Ideal S96x64 .f32) : FVec Ideal S50000x64 .f32 :=
  Host.dotGeneral (DotDims.plain 50000 96 64) none A W

/-- The body's stored value at an entry (the body first casts the loaded block to its own shape, which changes
    nothing): entry `(r, q)` of the whole product when the block's row `p` is the matrix's row `r`. -/
theorem stored1_apply (x0 : Vec Ideal S2000x96 .f32) (x1 : Vec Ideal S96x64 .f32)
    (A : FVec Ideal S50000x96 .f32) (W : FVec Ideal S96x64 .f32) (p : Fin 2000) (r : Fin 50000) (q : Fin 64)
    (ha : ∀ k : Fin 96, x0 (ix2 p k) = A (ix2 r k)) (hw : ∀ k : Fin 96, x1 (ix2 k q) = W (ix2 k q)) :
    k1_pay1 x0 x1 (ix2 p q) = product1 A W (ix2 r q) := by
  unfold k1_pay1
  rw [shapeCast_self]
  exact matmul_block_eq_dotGeneral none none .single (truncf .bf16 x0 bitsLt_bf16_f32) (truncf .bf16 x1 bitsLt_bf16_f32) A W p r q ha hw

/-- The printed index maps over the grid: point `t` takes block row `t` of the left matrix and of the output, and the
    right matrix whole. -/
theorem maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product. -/
theorem flushed1_eq (c : Dev nD) (t : Fin cfg1.N) :
    (dat1 V c).flushed 2 t = ((cfg1.win 2).blk t).view.read (Elt Ideal) (product1 (V c main_v50) (V c main_arg4)) := by
  show (cfg1.win 2).cut (grid1.coords t) ((dat1 V c).after 2 t) = _
  rw [after1_2]
  unfold out1_2
  rw [View.canon_unit_zero origin]
  simp only [View.ld_unit_zero (S := S2000x96) origin, View.ld_unit_zero (S := S96x64) origin]
  obtain ⟨e0, e1, e2, e3, e4, e5⟩ := maps1 t
  have ht : t.val < 25 := t.isLt
  funext j
  show k1_pay1 (iblk1 V c 0 t) (iblk1 V c 1 t) j = product1 (V c main_v50) (V c main_arg4) (((cfg1.win 2).blk t).view.emb j)
  obtain ⟨p, q, rfl⟩ : ∃ (p : Fin 2000) (q : Fin 64), j = ix2 p q := ⟨j 0, j 1, eq_ix2 j⟩
  have hp : p.val < 2000 := p.isLt
  have hrow : ((cfg1.win 2).blk t).view.emb (ix2 p q) = ix2 (⟨t.val * 2000 + p.val, by omega⟩ : Fin 50000) q := by
    funext a; apply Fin.ext
    match a with
    | ⟨0, _⟩ => show win1_2.index t (0 : Fin 2) * 2000 + 1 * p.val = t.val * 2000 + p.val; omega
    | ⟨1, _⟩ => show win1_2.index t (1 : Fin 2) * 64 + 1 * q.val = q.val; omega
  rw [hrow]
  refine stored1_apply (iblk1 V c 0 t) (iblk1 V c 1 t) (V c main_v50) (V c main_arg4) p ⟨t.val * 2000 + p.val, by omega⟩ q ?_ ?_
  · intro k
    show V c main_v50 (((cfg1.win 0).blk t).view.emb (ix2 p k)) = V c main_v50 (ix2 (⟨t.val * 2000 + p.val, by omega⟩ : Fin 50000) k)
    refine congrArg (V c main_v50) ?_
    funext a; apply Fin.ext
    match a with
    | ⟨0, _⟩ => show win1_0.index t (0 : Fin 2) * 2000 + 1 * p.val = t.val * 2000 + p.val; omega
    | ⟨1, _⟩ => show win1_0.index t (1 : Fin 2) * 96 + 1 * k.val = k.val; omega
  · intro k
    show V c main_arg4 (((cfg1.win 1).blk t).view.emb (ix2 k q)) = V c main_arg4 (ix2 k q)
    refine congrArg (V c main_arg4) ?_
    funext a; apply Fin.ext
    match a with
    | ⟨0, _⟩ => show win1_1.index t (0 : Fin 2) * 96 + 1 * k.val = k.val; omega
    | ⟨1, _⟩ => show win1_1.index t (1 : Fin 2) * 64 + 1 * q.val = q.val; omega

/-- An index of the output array is in point `t`'s block iff each coordinate is in the block's range on its axis. -/
theorem mem_block1 (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v51).slice (win1_2.rect t)).set ↔ _
  rw [View.set_slice_whole, Rect.mem_set_unit]
  exact Iff.rfl

/-- Row `r` of the output lies in the block of point `r / 2000`. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : grid1.N = 25 := N_1
  let t : Fin cfg1.N := ⟨(i 0).val / 2000, show (i 0).val / 2000 < grid1.N by omega⟩
  obtain ⟨e0, e1, e2, e3, e4, e5⟩ := maps1 t
  have ht : t.val = (i 0).val / 2000 := rfl
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After the second launch its output array holds the product of the whole matrices it was entered with. -/
theorem final1 (c : Dev nD) : (dat1 V c).arrAt 2 cfg1.N = product1 (V c main_v50) (V c main_arg4) :=
  (dat1 V c).arrAt_eq_of_cover 2 (product1 (V c main_v50) (V c main_arg4)) (fun t _ => flushed1_eq V c t) cover1

end Cert.KernelIdeal.Blocks

end
-- ==== Proof.HostStretches.lean ====
/-
  The host operations around the two launches, as functions.

  Besides its two matrix products the program is a fixed sequence of array operations on the host. Read as
  functions of the values they start from:
    * the two rows of the edge list, source row `srcRow` and destination row `dstRow`;
    * the symmetric normalisation of the edges, `edgeNorm`: with `deg v` the number of edges into `v` and
      `s v = if deg v > 0 then rsqrt (max (deg v) 1) else 0`, edge `e` gets `s (src e) * s (dst e)` (a negative node
      number wrapped by adding 50000 first, as jnp indexing does);
    * one aggregation, `aggregate96` / `aggregate64`: each edge takes the transformed row of its source node, scales
      it by the edge's normalisation, the scaled rows are summed into the destination nodes from zero, and the bias
      is added to every row; `hidden` is the first layer's aggregation followed by `max · 0`;
    * `network`, the two layers composed, each matrix product the host's product of the whole matrices.
  Each stretch of host operations, run from ANY buffer contents `X`, leaves these functions of what `X` holds in the
  buffers the stretch reads, and leaves alone the buffers it does not write.
-/
import proofs.«157648_j4956392259903_1_alg».proof.Proof.Gen.KernelIdeal.Launch
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]

/-! ## The functions -/

/-- The source row of the edge list. -/
def srcRow (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The destination row of the edge list. -/
def dstRow (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A node number below zero counts from the end: 50000 is added to it. -/
def wrap (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

/-- Node numbers as a column of one-entry index vectors. -/
def asColumn (v : (⟨S800000, .i32⟩ : BufTy).Contents (Elt F)) : (⟨S800000x1, .i32⟩ : BufTy).Contents (Elt F) :=
  broadcastInDim S800000x1 ![0] bcast_S800000_S800000x1_0 v

/-- The number of edges into each node: ones summed into the destination nodes from zero. -/
def degree (dst : (⟨S800000, .i32⟩ : BufTy).Contents (Elt F)) : FVec F S50000 .f32 :=
  Host.scatterAdd scatter_S50000_S800000x1_S800000_n_0_0_1 (broadcastInDim S50000 ![] bcast_S_S50000 (constant S_ .f32 0x00000000#32))
    (asColumn dst) (broadcastInDim S800000 ![] bcast_S_S800000 (constant S_ .f32 0x3F800000#32))

/-- `rsqrt (max deg 1)` where the degree is positive, zero elsewhere. -/
def invSqrtDegree (dst : (⟨S800000, .i32⟩ : BufTy).Contents (Elt F)) : FVec F S50000 .f32 :=
  select (cmpf .ogt (degree dst) (broadcastInDim S50000 ![] bcast_S_S50000 (constant S_ .f32 0x00000000#32)))
    (Host.rsqrt (maximumf (degree dst) (broadcastInDim S50000 ![] bcast_S_S50000 (constant S_ .f32 0x3F800000#32))))
    (broadcastInDim S50000 ![] bcast_S_S50000 (constant S_ .f32 0x00000000#32))

/-- The normalisation of each edge: the product of its two end nodes' `invSqrtDegree`. -/
def edgeNorm (ei : (⟨S2x800000, .i32⟩ : BufTy).Contents (Elt F)) : FVec F S800000 .f32 :=
  mulf (Host.gather gather_S50000_S800000x1_S800000_n_0_n_n_0_1_1 (invSqrtDegree (dstRow ei)) (asColumn (wrap (srcRow ei))))
    (Host.gather gather_S50000_S800000x1_S800000_n_0_n_n_0_1_1 (invSqrtDegree (dstRow ei)) (asColumn (wrap (dstRow ei))))

/-- One aggregation over 96 features: gather the source rows of `h`, scale by the edge normalisation, sum into the
    destination rows from zero, add the bias. -/
def aggregate96 (h : FVec F S50000x96 .f32) (src dst : (⟨S800000, .i32⟩ : BufTy).Contents (Elt F)) (nrm : FVec F S800000 .f32)
    (b : FVec F S96 .f32) : FVec F S50000x96 .f32 :=
  addf (Host.scatterAdd scatter_S50000x96_S800000x1_S800000x96_1_0_0_1 (broadcastInDim S50000x96 ![] bcast_S_S50000x96 (constant S_ .f32 0x00000000#32))
      (asColumn dst)
      (mulf (Host.gather gather_S50000x96_S800000x1_S800000x96_1_0_n_n_0_1_196 h (asColumn (wrap src)))
        (broadcastInDim S800000x96 ![0, 1] bcast_S800000x1_S800000x96_0_1 (broadcastInDim S800000x1 ![0] bcast_S800000_S800000x1_0 nrm))))
    (broadcastInDim S50000x96 ![0, 1] bcast_S1x96_S50000x96_0_1 (broadcastInDim S1x96 ![1] bcast_S96_S1x96_1 b))

/-- The hidden layer: the first aggregation, then `max · 0`. -/
def hidden (h : FVec F S50000x96 .f32) (src dst : (⟨S800000, .i32⟩ : BufTy).Contents (Elt F)) (nrm : FVec F S800000 .f32)
    (b : FVec F S96 .f32) : FVec F S50000x96 .f32 :=
  maximumf (aggregate96 h src dst nrm b) (broadcastInDim S50000x96 ![] bcast_S_S50000x96 (constant S_ .f32 0x00000000#32))

/-- The same aggregation over 64 features. -/
def aggregate64 (h : FVec F S50000x64 .f32) (src dst : (⟨S800000, .i32⟩ : BufTy).Contents (Elt F)) (nrm : FVec F S800000 .f32)
    (b : FVec F S64 .f32) : FVec F S50000x64 .f32 :=
  addf (Host.scatterAdd scatter_S50000x64_S800000x1_S800000x64_1_0_0_1 (broadcastInDim S50000x64 ![] bcast_S_S50000x64 (constant S_ .f32 0x00000000#32))
      (asColumn dst)
      (mulf (Host.gather gather_S50000x64_S800000x1_S800000x64_1_0_n_n_0_1_164 h (asColumn (wrap src)))
        (broadcastInDim S800000x64 ![0, 1] bcast_S800000x1_S800000x64_0_1 (broadcastInDim S800000x1 ![0] bcast_S800000_S800000x1_0 nrm))))
    (broadcastInDim S50000x64 ![0, 1] bcast_S1x64_S50000x64_0_1 (broadcastInDim S1x64 ![1] bcast_S64_S1x64_1 b))

/-- The whole two-layer network from the six argument arrays, each matrix product the host's `dot_general` of the whole
    matrices: `aggregate64 (hidden (x · W1) … b1 · W2) … b2`. -/
def network (x : FVec F S50000x128 .f32) (ei : (⟨S2x800000, .i32⟩ : BufTy).Contents (Elt F))
    (w1 : FVec F S128x96 .f32) (b1 : FVec F S96 .f32) (w2 : FVec F S96x64 .f32) (b2 : FVec F S64 .f32) :
    FVec F S50000x64 .f32 :=
  aggregate64
    (Host.dotGeneral (DotDims.plain 50000 96 64) none
      (hidden (Host.dotGeneral (DotDims.plain 50000 128 96) none x w1) (srcRow ei) (dstRow ei) (edgeNorm ei) b1) w2)
    (srcRow ei) (dstRow ei) (edgeNorm ei) b2

/-! ## The last stretch: from the second product to the result -/

set_option maxHeartbeats 4000000 in
theorem last_result (X : Valuation τ sig (Elt F)) :
    after hostOps2 X (Proc.devRef .tc main_v67)
      = aggregate64 (X (Proc.devRef .tc main_v51)) (X (Proc.devRef .tc main_v1)) (X (Proc.devRef .tc main_v3))
          (X (Proc.devRef .tc main_v32)) (X (Proc.devRef .tc main_arg5)) := by
  dsimp only [hostOps2]
  after_results_simp
  rfl

/-! ## The middle stretch: from the first product to the second launch's left operand -/

set_option maxHeartbeats 4000000 in
theorem middle_result (X : Valuation τ sig (Elt F)) :
    after hostOps1_1 (after hostOps1 X) (Proc.devRef .tc main_v50)
      = hidden (X (Proc.devRef .tc main_v33)) (X (Proc.devRef .tc main_v1)) (X (Proc.devRef .tc main_v3))
          (X (Proc.devRef .tc main_v32)) (X (Proc.devRef .tc main_arg3)) := by
  dsimp only [hostOps1, hostOps1_1]
  after_results_simp
  rfl

/-! It leaves alone the edge rows, the edge normalisation and the arguments read later. -/

set_option maxHeartbeats 4000000 in
theorem middle_keep_src (X : Valuation τ sig (Elt F)) :
    after hostOps1_1 (after hostOps1 X) (Proc.devRef .tc main_v1) = X (Proc.devRef .tc main_v1) := by
  dsimp only [hostOps1, hostOps1_1]
  after_results_simp <;> rfl

set_option maxHeartbeats 4000000 in
theorem middle_keep_dst (X : Valuation τ sig (Elt F)) :
    after hostOps1_1 (after hostOps1 X) (Proc.devRef .tc main_v3) = X (Proc.devRef .tc main_v3) := by
  dsimp only [hostOps1, hostOps1_1]
  after_results_simp <;> rfl

set_option maxHeartbeats 4000000 in
theorem middle_keep_norm (X : Valuation τ sig (Elt F)) :
    after hostOps1_1 (after hostOps1 X) (Proc.devRef .tc main_v32) = X (Proc.devRef .tc main_v32) := by
  dsimp only [hostOps1, hostOps1_1]
  after_results_simp <;> rfl

set_option maxHeartbeats 4000000 in
theorem middle_keep_arg4 (X : Valuation τ sig (Elt F)) :
    after hostOps1_1 (after hostOps1 X) (Proc.devRef .tc main_arg4) = X (Proc.devRef .tc main_arg4) := by
  dsimp only [hostOps1, hostOps1_1]
  after_results_simp <;> rfl

set_option maxHeartbeats 4000000 in
theorem middle_keep_arg5 (X : Valuation τ sig (Elt F)) :
    after hostOps1_1 (after hostOps1 X) (Proc.devRef .tc main_arg5) = X (Proc.devRef .tc main_arg5) := by
  dsimp only [hostOps1, hostOps1_1]
  after_results_simp <;> rfl

/-! ## The first stretch: from the arguments to the first launch -/

set_option maxHeartbeats 4000000 in
theorem first_src (X : Valuation τ sig (Elt F)) :
    after hostOps0_2 (after hostOps0_1 (after hostOps0 X)) (Proc.devRef .tc main_v1) = srcRow (X (Proc.devRef .tc main_arg1)) := by
  dsimp only [hostOps0, hostOps0_1, hostOps0_2]
  after_results_simp
  rfl

set_option maxHeartbeats 4000000 in
theorem first_dst (X : Valuation τ sig (Elt F)) :
    after hostOps0_2 (after hostOps0_1 (after hostOps0 X)) (Proc.devRef .tc main_v3) = dstRow (X (Proc.devRef .tc main_arg1)) := by
  dsimp only [hostOps0, hostOps0_1, hostOps0_2]
  after_results_simp
  rfl

set_option maxHeartbeats 8000000 in
theorem first_norm (X : Valuation τ sig (Elt F)) :
    after hostOps0_2 (after hostOps0_1 (after hostOps0 X)) (Proc.devRef .tc main_v32) = edgeNorm (X (Proc.devRef .tc main_arg1)) := by
  dsimp only [hostOps0, hostOps0_1, hostOps0_2]
  after_results_simp
  rfl

/-! It leaves alone the float arguments. -/

set_option maxHeartbeats 4000000 in
theorem first_keep_arg0 (X : Valuation τ sig (Elt F)) :
    after hostOps0_2 (after hostOps0_1 (after hostOps0 X)) (Proc.devRef .tc main_arg0) = X (Proc.devRef .tc main_arg0) := by
  dsimp only [hostOps0, hostOps0_1, hostOps0_2]
  after_results_simp <;> rfl

set_option maxHeartbeats 4000000 in
theorem first_keep_arg2 (X : Valuation τ sig (Elt F)) :
    after hostOps0_2 (after hostOps0_1 (after hostOps0 X)) (Proc.devRef .tc main_arg2) = X (Proc.devRef .tc main_arg2) := by
  dsimp only [hostOps0, hostOps0_1, hostOps0_2]
  after_results_simp <;> rfl

set_option maxHeartbeats 4000000 in
theorem first_keep_arg3 (X : Valuation τ sig (Elt F)) :
    after hostOps0_2 (after hostOps0_1 (after hostOps0 X)) (Proc.devRef .tc main_arg3) = X (Proc.devRef .tc main_arg3) := by
  dsimp only [hostOps0, hostOps0_1, hostOps0_2]
  after_results_simp <;> rfl

set_option maxHeartbeats 4000000 in
theorem first_keep_arg4 (X : Valuation τ sig (Elt F)) :
    after hostOps0_2 (after hostOps0_1 (after hostOps0 X)) (Proc.devRef .tc main_arg4) = X (Proc.devRef .tc main_arg4) := by
  dsimp only [hostOps0, hostOps0_1, hostOps0_2]
  after_results_simp <;> rfl

set_option maxHeartbeats 4000000 in
theorem first_keep_arg5 (X : Valuation τ sig (Elt F)) :
    after hostOps0_2 (after hostOps0_1 (after hostOps0 X)) (Proc.devRef .tc main_arg5) = X (Proc.devRef .tc main_arg5) := by
  dsimp only [hostOps0, hostOps0_1, hostOps0_2]
  after_results_simp <;> rfl

end Cert.KernelIdeal.Host

end
-- ==== Proof.KernelRun.lean ====
/-
  The kernel's program run: what its result buffer holds at the end, as one function of the arguments.

  The program is eight segments: three stretches of host operations, the first launch, two stretches, the second
  launch, a last stretch. Every weakly fair execution ends with each buffer at the contents obtained by folding the
  segments over the launch memory (the host stretches as functions, each launch replacing its output array by what
  its write-backs leave). Reading that fold at the result buffer, one segment at a time:
    result = aggregate64 (H · W2) src dst norm b2,   H = hidden (x · W1) src dst norm b1,
  with `src`, `dst` the rows of the edge list, `norm` the edges' symmetric normalisation, and each `·` the product of
  the whole matrices (what a launch's 25 row blocks add up to).
-/
import proofs.«157648_j4956392259903_1_alg».proof.Proof.Gen.KernelIdeal.Frame
import proofs.«157648_j4956392259903_1_alg».proof.Proof.KernelBlocks
import proofs.«157648_j4956392259903_1_alg».proof.Proof.HostStretches

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The fold of the eight segments over the launch memory, read at the result buffer. -/
theorem fold_result (c : Dev nD) :
    W8 m ρ c (Proc.devRef .tc main_v67)
      = Host.network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- the first stretch, from the launch memory
  have a1 : W3 m ρ c (Proc.devRef .tc main_v1) = Host.srcRow (m ((c : Thread nD τ).loc main_arg1)) := Host.first_src (W0 m ρ c)
  have a3 : W3 m ρ c (Proc.devRef .tc main_v3) = Host.dstRow (m ((c : Thread nD τ).loc main_arg1)) := Host.first_dst (W0 m ρ c)
  have a32 : W3 m ρ c (Proc.devRef .tc main_v32) = Host.edgeNorm (m ((c : Thread nD τ).loc main_arg1)) := Host.first_norm (W0 m ρ c)
  have x0 : W3 m ρ c (Proc.devRef .tc main_arg0) = m ((c : Thread nD τ).loc main_arg0) := Host.first_keep_arg0 (W0 m ρ c)
  have x2 : W3 m ρ c (Proc.devRef .tc main_arg2) = m ((c : Thread nD τ).loc main_arg2) := Host.first_keep_arg2 (W0 m ρ c)
  have x3 : W3 m ρ c (Proc.devRef .tc main_arg3) = m ((c : Thread nD τ).loc main_arg3) := Host.first_keep_arg3 (W0 m ρ c)
  have x4 : W3 m ρ c (Proc.devRef .tc main_arg4) = m ((c : Thread nD τ).loc main_arg4) := Host.first_keep_arg4 (W0 m ρ c)
  have x5 : W3 m ρ c (Proc.devRef .tc main_arg5) = m ((c : Thread nD τ).loc main_arg5) := Host.first_keep_arg5 (W0 m ρ c)
  -- the first launch: its output array at the product, everything else kept
  have p33 : W4 m ρ c (Proc.devRef .tc main_v33)
      = Blocks.product0 (W3 m ρ c (Proc.devRef .tc main_arg0)) (W3 m ρ c (Proc.devRef .tc main_arg2)) :=
    (W4_arr m ρ c 2).trans (Blocks.final0 (V3 m ρ) c)
  have b1 : W4 m ρ c (Proc.devRef .tc main_v1) = W3 m ρ c (Proc.devRef .tc main_v1) := W4_of_ne m ρ c main_v1 (by decide)
  have b3 : W4 m ρ c (Proc.devRef .tc main_v3) = W3 m ρ c (Proc.devRef .tc main_v3) := W4_of_ne m ρ c main_v3 (by decide)
  have b32 : W4 m ρ c (Proc.devRef .tc main_v32) = W3 m ρ c (Proc.devRef .tc main_v32) := W4_of_ne m ρ c main_v32 (by decide)
  have y3 : W4 m ρ c (Proc.devRef .tc main_arg3) = W3 m ρ c (Proc.devRef .tc main_arg3) := W4_of_ne m ρ c main_arg3 (by decide)
  have y4 : W4 m ρ c (Proc.devRef .tc main_arg4) = W3 m ρ c (Proc.devRef .tc main_arg4) := W4_of_ne m ρ c main_arg4 (by decide)
  have y5 : W4 m ρ c (Proc.devRef .tc main_arg5) = W3 m ρ c (Proc.devRef .tc main_arg5) := W4_of_ne m ρ c main_arg5 (by decide)
  -- the middle stretch
  have h50 : W6 m ρ c (Proc.devRef .tc main_v50)
      = Host.hidden (W4 m ρ c (Proc.devRef .tc main_v33)) (W4 m ρ c (Proc.devRef .tc main_v1)) (W4 m ρ c (Proc.devRef .tc main_v3))
          (W4 m ρ c (Proc.devRef .tc main_v32)) (W4 m ρ c (Proc.devRef .tc main_arg3)) := Host.middle_result (W4 m ρ c)
  have c1 : W6 m ρ c (Proc.devRef .tc main_v1) = W4 m ρ c (Proc.devRef .tc main_v1) := Host.middle_keep_src (W4 m ρ c)
  have c3 : W6 m ρ c (Proc.devRef .tc main_v3) = W4 m ρ c (Proc.devRef .tc main_v3) := Host.middle_keep_dst (W4 m ρ c)
  have c32 : W6 m ρ c (Proc.devRef .tc main_v32) = W4 m ρ c (Proc.devRef .tc main_v32) := Host.middle_keep_norm (W4 m ρ c)
  have z4 : W6 m ρ c (Proc.devRef .tc main_arg4) = W4 m ρ c (Proc.devRef .tc main_arg4) := Host.middle_keep_arg4 (W4 m ρ c)
  have z5 : W6 m ρ c (Proc.devRef .tc main_arg5) = W4 m ρ c (Proc.devRef .tc main_arg5) := Host.middle_keep_arg5 (W4 m ρ c)
  -- the second launch
  have p51 : W7 m ρ c (Proc.devRef .tc main_v51)
      = Blocks.product1 (W6 m ρ c (Proc.devRef .tc main_v50)) (W6 m ρ c (Proc.devRef .tc main_arg4)) :=
    (W7_arr m ρ c 2).trans (Blocks.final1 (V6 m ρ) c)
  have d1 : W7 m ρ c (Proc.devRef .tc main_v1) = W6 m ρ c (Proc.devRef .tc main_v1) := W7_of_ne m ρ c main_v1 (by decide)
  have d3 : W7 m ρ c (Proc.devRef .tc main_v3) = W6 m ρ c (Proc.devRef .tc main_v3) := W7_of_ne m ρ c main_v3 (by decide)
  have d32 : W7 m ρ c (Proc.devRef .tc main_v32) = W6 m ρ c (Proc.devRef .tc main_v32) := W7_of_ne m ρ c main_v32 (by decide)
  have u5 : W7 m ρ c (Proc.devRef .tc main_arg5) = W6 m ρ c (Proc.devRef .tc main_arg5) := W7_of_ne m ρ c main_arg5 (by decide)
  -- the last stretch, and the equations put together
  refine (Host.last_result (W7 m ρ c)).trans ?_
  rw [p51, d1, d3, d32, u5, h50, c1, c3, c32, z4, z5, p33, b1, b3, b32, y3, y4, y5, a1, a3, a32, x0, x2, x3, x4, x5]
  rfl

/-! ## The run -/

set_option backward.isDefEq.respectTransparency.types false in
/-- Every weakly fair execution of the program terminates, nothing faulting, with every unscoped buffer at the fold of
    the eight segments over the launch memory. -/
theorem run_fold : θ_run defs (onTc (τ := τ) (main (F := Ideal))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run with the result named: the result buffer ends at the network of the arguments, the arguments as
    launched. -/
theorem run : θ_run defs (onTc (τ := τ) (main (F := Ideal))) ⟨m, fun _ => 0, ρ⟩ (fun r => ∀ c : Dev nD,
      r.2.mem ((c.tc : Thread nD τ).loc main_v67)
        = Host.network (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v67 (by decide))).trans (fold_result m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)
    (run_fold m ρ)

end Cert.KernelIdeal.Run

end
-- ==== Proof.ReferenceValue.lean ====
/-
  The reference computes the same network.

  The reference program is the same sequence of host operations with a `dot_general` of the whole matrices where the
  kernel's program has a launch. Its run's result term is therefore, operation by operation, the function `network`
  of the argument arrays: the edge rows, the symmetric normalisation, and two aggregations around the products
  `x · W1` and `hidden · W2`. Nothing is computed here: the two terms are the same tree of operations.
-/
import proofs.«157648_j4956392259903_1_alg».proof.Proof.ReferenceRun
import proofs.«157648_j4956392259903_1_alg».proof.Proof.HostStretches
import Idealize.ShloMosaic.PureOps.Ideal

set_option maxRecDepth 16384

noncomputable section

namespace Cert.ReferenceIdeal.RefValue

open Idealize.ShloMosaic Idealize.ShloMosaic.TcCoe Idealize.SL.Sem
open Cert.ReferenceIdeal Cert.ReferenceIdeal.Gen

/-- The reference run's result term is the network of its arguments. -/
theorem result_eq (m : (ℓ : Loc nD τ sig) → Buf (Elt Ideal) ℓ) (c : Dev nD) :
    Cert.ReferenceIdeal.ValueP.res_main_v67 m c
      = Cert.KernelIdeal.Host.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v67 Cert.KernelIdeal.Host.network Cert.KernelIdeal.Host.aggregate64
    Cert.KernelIdeal.Host.hidden Cert.KernelIdeal.Host.aggregate96 Cert.KernelIdeal.Host.edgeNorm
    Cert.KernelIdeal.Host.invSqrtDegree Cert.KernelIdeal.Host.degree Cert.KernelIdeal.Host.asColumn
    Cert.KernelIdeal.Host.wrap Cert.KernelIdeal.Host.srcRow Cert.KernelIdeal.Host.dstRow
  rfl

end Cert.ReferenceIdeal.RefValue

end
-- ==== Proof.lean ====
/-
  A two-layer graph convolution, `out = Â · relu(Â · (x · W1) + b1) · W2 + b2` with `Â` the edge list's symmetric
  normalisation applied as gather–scale–scatter-add, computed two ways.

  The kernel's program does the two dense products `x · W1` ([50000,128]·[128,96]) and `h · W2` ([50000,96]·[96,64]) in
  a tiled launch each — 25 blocks of 2000 rows, the operands rounded to bf16 on the way into the matrix unit, an f32
  accumulator started at zero — and everything else (the edge rows, the degree normalisation, gather, scale,
  scatter-add, bias, `max · 0`) as host operations; the reference does the same host operations with a `dot_general`
  of the whole matrices in place of each launch. On the extended reals a change of float format is the identity and
  an entry of a product is a sum over the contraction index that reads one row of the left operand, so each launch's
  row blocks add up to the whole product (Proof/LibRowBlockProduct.lean, Proof/KernelBlocks.lean). The host operations
  are the same functions on both sides (Proof/HostStretches.lean), so both programs end at the ONE function
  `network` of the six arguments: the kernel's program by folding its eight segments (Proof/KernelRun.lean), the
  reference by reading its run's term (Proof/ReferenceValue.lean). The block's sum and the whole product's sum run over the
  same contraction index with the same terms, so no law of arithmetic that could fail at an infinity is used and the
  precondition is never opened.
  The ideal pass rewrote nothing, so `preserves` is `True`.
-/
import proofs.«157648_j4956392259903_1_alg».proof.Defs
import proofs.«157648_j4956392259903_1_alg».proof.Proof.Gen.Kernel
import proofs.«157648_j4956392259903_1_alg».proof.Proof.Gen.Kernel.Frame
import proofs.«157648_j4956392259903_1_alg».proof.Proof.Gen.KernelIdeal
import proofs.«157648_j4956392259903_1_alg».proof.Proof.Gen.KernelIdeal.Frame
import proofs.«157648_j4956392259903_1_alg».proof.Proof.Gen.ReferenceIdeal
import proofs.«157648_j4956392259903_1_alg».proof.Proof.Gen.Pre_finite_inputs
import proofs.«157648_j4956392259903_1_alg».proof.Proof.ReferenceRun
import proofs.«157648_j4956392259903_1_alg».proof.Proof.KernelRun
import proofs.«157648_j4956392259903_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the result buffer at `network` of the arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
